-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x32 .f32) (main_arg1 : IVec S2x3200000 32) (main_arg2 : FVec F S32x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x32 : Shape := ⟨2, ![100000, 32]⟩
abbrev S2x3200000 : Shape := ⟨2, ![2, 3200000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S2000x32 : Shape := ⟨2, ![2000, 32]⟩
abbrev S2000x64 : Shape := ⟨2, ![2000, 64]⟩
abbrev S3200000x64 : Shape := ⟨2, ![3200000, 64]⟩
abbrev S100000x1 : Shape := ⟨2, ![100000, 1]⟩
abbrev S1x64 : Shape := ⟨2, ![1, 64]⟩
abbrev S2000x1 : Shape := ⟨2, ![2000, 1]⟩
abbrev S1x1 : Shape := ⟨2, ![1, 1]⟩

abbrev nBuf : Space → Nat
  | .hbm => 86
  | .vmem => 34
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S3200000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x64, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x64, .f32⟩
  | .hbm, ⟨54, _⟩ => ⟨S3200000x1, .f32⟩
  | .hbm, ⟨55, _⟩ => ⟨S3200000x64, .f32⟩
  | .hbm, ⟨56, _⟩ => ⟨S3200000x64, .f32⟩
  | .hbm, ⟨57, _⟩ => ⟨S_, .f32⟩
  | .hbm, ⟨58, _⟩ => ⟨S100000x64, .f32⟩
  | .hbm, ⟨59, _⟩ => ⟨S3200000x1, .i32⟩
  | .hbm, ⟨60, _⟩ => ⟨S100000x64, .f32⟩
  | .hbm, ⟨61, _⟩ => ⟨S100000x1, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S3200000x64, .f32⟩
  | .hbm, ⟨74, _⟩ => ⟨S3200000x1, .f32⟩
  | .hbm, ⟨75, _⟩ => ⟨S3200000x64, .f32⟩
  | .hbm, ⟨76, _⟩ => ⟨S3200000x64, .f32⟩
  | .hbm, ⟨77, _⟩ => ⟨S_, .f32⟩
  | .hbm, ⟨78, _⟩ => ⟨S100000x64, .f32⟩
  | .hbm, ⟨79, _⟩ => ⟨S3200000x1, .i32⟩
  | .hbm, ⟨80, _⟩ => ⟨S100000x64, .f32⟩
  | .hbm, ⟨81, _⟩ => ⟨S100000x1, .f32⟩
  | .hbm, ⟨82, _⟩ => ⟨S1x64, .f32⟩
  | .hbm, ⟨83, _⟩ => ⟨S100000x64, .f32⟩
  | .hbm, ⟨84, _⟩ => ⟨S1x1, .f32⟩
  | .hbm, ⟨85, _⟩ => ⟨S100000x1, .f32⟩
  | .local _ .vmem, ⟨0, _⟩ => ⟨S2000x32, .f32⟩
  | .local _ .vmem, ⟨1, _⟩ => ⟨S2000x32, .f32⟩
  | .local _ .vmem, ⟨2, _⟩ => ⟨S32x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x1, .f32⟩
  | .local _ .vmem, ⟨31, _⟩ => ⟨S1x1, .f32⟩
  | .local _ .vmem, ⟨32, _⟩ => ⟨S2000x1, .f32⟩
  | .local _ .vmem, ⟨33, _⟩ => ⟨S2000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S2000x64_S2000x64_0_0 : ∀ a, (![0, 0] : Fin 2 → Nat) a + S2000x64.size a ≤ S2000x64.size a
  h_S2000x64 : 0 < S2000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S2000x32_S32x64_S2000x64_1_0_0_1_n_n_wf : DotDims.WF S2000x32 S32x64 S2000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S100000x1.size a
  hwx4_3 : ∀ i : grid4.Coords, EltTy.bits .f32 = 32 ∨ (Rect.block (s := S100000x1) S2000x1.size (cc4_transform_3 i) (hinb4_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v61) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S2000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S100000x32, .f32⟩
  | 1 => ⟨S2x3200000, .i32⟩
  | 2 => ⟨S32x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x3200000, .i32⟩
  | 9 => ⟨S3200000, .i32⟩
  | 10 => ⟨S1x3200000, .i32⟩
  | 11 => ⟨S3200000, .i32⟩
  | 12 => ⟨S100000x64, .f32⟩
  | 13 => ⟨S_, .f32⟩
  | 14 => ⟨S3200000, .f32⟩
  | 15 => ⟨S_, .f32⟩
  | 16 => ⟨S100000, .f32⟩
  | 17 => ⟨S3200000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x64, .f32⟩
  | 51 => ⟨S3200000x1, .f32⟩
  | 52 => ⟨S3200000x64, .f32⟩
  | 53 => ⟨S3200000x64, .f32⟩
  | 54 => ⟨S_, .f32⟩
  | 55 => ⟨S100000x64, .f32⟩
  | 56 => ⟨S3200000x1, .i32⟩
  | 57 => ⟨S100000x64, .f32⟩
  | 58 => ⟨S_, .f32⟩
  | 59 => ⟨S100000, .f32⟩
  | 60 => ⟨S100000, .f32⟩
  | 61 => ⟨S100000x1, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S3200000, .f32⟩
  | 74 => ⟨S_, .f32⟩
  | 75 => ⟨S100000, .f32⟩
  | 76 => ⟨S3200000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000, .f32⟩
  | 100 => ⟨S3200000, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x64, .f32⟩
  | 110 => ⟨S3200000x1, .f32⟩
  | 111 => ⟨S3200000x64, .f32⟩
  | 112 => ⟨S3200000x64, .f32⟩
  | 113 => ⟨S_, .f32⟩
  | 114 => ⟨S100000x64, .f32⟩
  | 115 => ⟨S3200000x1, .i32⟩
  | 116 => ⟨S100000x64, .f32⟩
  | 117 => ⟨S_, .f32⟩
  | 118 => ⟨S100000, .f32⟩
  | 119 => ⟨S100000, .f32⟩
  | 120 => ⟨S100000x1, .f32⟩
  | 121 => ⟨S100000x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x32, .f32⟩

abbrev hbmTy0_1 (i : Nat) : BufTy := match i % 128 with
  | 0 => ⟨S100000x64, .f32⟩
  | 1 => ⟨S100000x64, .f32⟩
  | 2 => ⟨S100000x1, .f32⟩
  | 3 => ⟨S1x1, .f32⟩
  | 4 => ⟨S100000x1, .f32⟩
  | 5 => ⟨S100000x1, .f32⟩
  | 6 => ⟨S100000x1, .f32⟩
  | 7 => ⟨S100000x1, .f32⟩
  | 8 => ⟨S_, .f32⟩
  | 9 => ⟨S100000x1, .f32⟩
  | 10 => ⟨S100000x1, .f32⟩
  | 11 => ⟨S_, .f32⟩
  | 12 => ⟨S100000x1, .f32⟩
  | 13 => ⟨S100000x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call1_cst : Ref sig .tc := ⟨.hbm, 127, rfl⟩
abbrev main_call1_v0 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_20 : Ref sig .tc := ⟨.hbm, 136, rfl⟩
abbrev main_v102 : Ref sig .tc := ⟨.hbm, 137, rfl⟩
abbrev main_v103 : Ref sig .tc := ⟨.hbm, 138, rfl⟩
abbrev main_cst_21 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x32_S32x64_S100000x64_1_0_0_1_n_n_wf : DotDims.WF S100000x32 S32x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run with its result kept.

  The program is nine segments: four stretches of host operations and five grid launches. Its run from any memory
  terminates without a fault, and at the end every buffer that outlives a launch holds the last entry of a chain of
  nine valuations: each stretch of host operations applied to the valuation before it, each launch replacing its
  windows' arrays by what its write-backs leave. Read at the result buffer the end of that chain is the result; read
  at an argument it walks back to the launch memory. The statement below keeps both readings; the frame claim keeps
  only the second.
-/
import proofs.«127495_j8564164788849_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    valuation of the chain and every argument as launched. -/
theorem run : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.HostStretch0.lean ====
/-
  The host operations before the first launch, read from any starting valuation.

  They split the edge list into its source and target rows, count each node's incoming edges (a scatter-add of ones
  by the target row) and add one for the self loop to get the degree, take its reciprocal square root, gather that at
  the two ends of every edge and multiply (the edge weight), and divide one by the degree (the self-loop weight). Both
  programs spell these same operations in the same order, so each buffer written here holds the reference's
  intermediate of the same meaning, as a function of the edge list alone; the reference computes the degree twice, once
  per layer, hence two names for the same edge weight and the same self-loop weight. No argument buffer is written.
-/
import proofs.«127495_j8564164788849_1_alg».proof.Proof.Gen.KernelIdeal.Launch
import proofs.«127495_j8564164788849_1_alg».proof.Proof.Gen.ReferenceIdeal.Read
import Idealize.ShloMosaic.Lib.StableHlo.Run

set_option maxRecDepth 16384
set_option maxHeartbeats 4000000

noncomputable section

namespace Cert.KernelIdeal.Stretch0

open Cert.KernelIdeal Cert.KernelIdeal.Gen
open Idealize.ShloMosaic Idealize.ShloMosaic.TcCoe Idealize.ShloMosaic.StableHlo Idealize.SL.Sem

variable (Wv : Valuation τ sig (Elt Ideal))

/-- The edge list's source row. -/
theorem src : StableHlo.after hostOps0 Wv (Proc.devRef .tc main_v1)
    = Cert.ReferenceIdeal.Read.val_main_v1 (F := Ideal) (Wv (Proc.devRef .tc main_arg1)) := by
  after_results_simp <;> rfl

/-- The edge list's target row. -/
theorem dst : StableHlo.after hostOps0 Wv (Proc.devRef .tc main_v3)
    = Cert.ReferenceIdeal.Read.val_main_v3 (F := Ideal) (Wv (Proc.devRef .tc main_arg1)) := by
  after_results_simp <;> rfl

/-- The edge weight, under the reference's first-layer name. -/
theorem weight1 : StableHlo.after hostOps0 Wv (Proc.devRef .tc main_v25)
    = Cert.ReferenceIdeal.Read.val_main_v26 (F := Ideal) (Wv (Proc.devRef .tc main_arg1)) := by
  after_results_simp <;> rfl

/-- The edge weight, under the reference's second-layer name. -/
theorem weight2 : StableHlo.after hostOps0 Wv (Proc.devRef .tc main_v25)
    = Cert.ReferenceIdeal.Read.val_main_v72 (F := Ideal) (Wv (Proc.devRef .tc main_arg1)) := by
  after_results_simp <;> rfl

/-- The self-loop weight, under the reference's first-layer name. -/
theorem self1 : StableHlo.after hostOps0 Wv (Proc.devRef .tc main_v27)
    = Cert.ReferenceIdeal.Read.val_main_v41 (F := Ideal) (Wv (Proc.devRef .tc main_arg1)) := by
  after_results_simp <;> rfl

/-- The self-loop weight, under the reference's second-layer name. -/
theorem self2 : StableHlo.after hostOps0 Wv (Proc.devRef .tc main_v27)
    = Cert.ReferenceIdeal.Read.val_main_v87 (F := Ideal) (Wv (Proc.devRef .tc main_arg1)) := by
  after_results_simp <;> rfl

theorem keep_arg0 : StableHlo.after hostOps0 Wv (Proc.devRef .tc main_arg0) = Wv (Proc.devRef .tc main_arg0) := by
  after_results_simp <;> rfl

theorem keep_arg2 : StableHlo.after hostOps0 Wv (Proc.devRef .tc main_arg2) = Wv (Proc.devRef .tc main_arg2) := by
  after_results_simp <;> rfl

theorem keep_arg3 : StableHlo.after hostOps0 Wv (Proc.devRef .tc main_arg3) = Wv (Proc.devRef .tc main_arg3) := by
  after_results_simp <;> rfl

theorem keep_arg4 : StableHlo.after hostOps0 Wv (Proc.devRef .tc main_arg4) = Wv (Proc.devRef .tc main_arg4) := by
  after_results_simp <;> rfl

theorem keep_arg5 : StableHlo.after hostOps0 Wv (Proc.devRef .tc main_arg5) = Wv (Proc.devRef .tc main_arg5) := by
  after_results_simp <;> rfl

theorem keep_arg6 : StableHlo.after hostOps0 Wv (Proc.devRef .tc main_arg6) = Wv (Proc.devRef .tc main_arg6) := by
  after_results_simp <;> rfl

theorem keep_arg7 : StableHlo.after hostOps0 Wv (Proc.devRef .tc main_arg7) = Wv (Proc.devRef .tc main_arg7) := by
  after_results_simp <;> rfl

end Cert.KernelIdeal.Stretch0

end
-- ==== Proof.HostStretch1.lean ====
/-
  The host operations between the first and the second launch, read from any starting valuation.

  They gather the first product at each edge's source, scale it by the edge weight, scatter-add it at the edge's
  target into zeros (the aggregated messages), and reshape the self-loop weights to a column and the first bias to a
  row. The reference spells the same gather, scaling and scatter-add, so once the four buffers these operations read
  hold the reference's intermediates, the aggregated messages are the reference's. The buffers later operations still
  need are not written.
-/
import proofs.«127495_j8564164788849_1_alg».proof.Proof.Gen.KernelIdeal.Launch
import proofs.«127495_j8564164788849_1_alg».proof.Proof.Gen.ReferenceIdeal.Read
import Idealize.ShloMosaic.Lib.StableHlo.Run

set_option maxRecDepth 16384
set_option maxHeartbeats 4000000

noncomputable section

namespace Cert.KernelIdeal.Stretch1

open Cert.KernelIdeal Cert.KernelIdeal.Gen
open Idealize.ShloMosaic Idealize.ShloMosaic.TcCoe Idealize.ShloMosaic.StableHlo Idealize.SL.Sem

variable (Wv : Valuation τ sig (Elt Ideal))

/-- The aggregated messages: the layer's product gathered at each edge's source, scaled by the edge weight and
    scatter-added at the edge's target, from the four buffers the operations read. -/
theorem agg (x0 : (⟨Cert.ReferenceIdeal.S100000x32, .f32⟩ : BufTy).Contents (Elt Ideal)) (x1 : (⟨Cert.ReferenceIdeal.S2x3200000, .i32⟩ : BufTy).Contents (Elt Ideal)) (x2 : (⟨Cert.ReferenceIdeal.S32x64, .f32⟩ : BufTy).Contents (Elt Ideal))
    (hh : Wv (Proc.devRef .tc main_v28) = Cert.ReferenceIdeal.Read.val_main_v4 (F := Ideal) x0 x2)
    (hs : Wv (Proc.devRef .tc main_v1) = Cert.ReferenceIdeal.Read.val_main_v1 (F := Ideal) x1)
    (ht : Wv (Proc.devRef .tc main_v3) = Cert.ReferenceIdeal.Read.val_main_v3 (F := Ideal) x1)
    (hw : Wv (Proc.devRef .tc main_v25) = Cert.ReferenceIdeal.Read.val_main_v26 (F := Ideal) x1) :
    StableHlo.after hostOps1 Wv (Proc.devRef .tc main_v41) = Cert.ReferenceIdeal.Read.val_main_v39 (F := Ideal) x0 x1 x2 := by
  after_results_simp
  rw [hh, hs, ht, hw]
  rfl

/-- The self-loop weights as a column. -/
theorem selfColumn : StableHlo.after hostOps1 Wv (Proc.devRef .tc main_v42)
    = shapeCast S100000x1 (Wv (Proc.devRef .tc main_v27)) shapeCasts_S100000_S100000x1 := by
  after_results_simp <;> rfl

/-- The first bias as a row. -/
theorem biasRow : StableHlo.after hostOps1 Wv (Proc.devRef .tc main_v43)
    = shapeCast S1x64 (Wv (Proc.devRef .tc main_arg3)) shapeCasts_S64_S1x64 := by
  after_results_simp <;> rfl

theorem keep_product : StableHlo.after hostOps1 Wv (Proc.devRef .tc main_v28) = Wv (Proc.devRef .tc main_v28) := by
  after_results_simp <;> rfl

theorem keep_src : StableHlo.after hostOps1 Wv (Proc.devRef .tc main_v1) = Wv (Proc.devRef .tc main_v1) := by
  after_results_simp <;> rfl

theorem keep_dst : StableHlo.after hostOps1 Wv (Proc.devRef .tc main_v3) = Wv (Proc.devRef .tc main_v3) := by
  after_results_simp <;> rfl

theorem keep_weight : StableHlo.after hostOps1 Wv (Proc.devRef .tc main_v25) = Wv (Proc.devRef .tc main_v25) := by
  after_results_simp <;> rfl

theorem keep_self : StableHlo.after hostOps1 Wv (Proc.devRef .tc main_v27) = Wv (Proc.devRef .tc main_v27) := by
  after_results_simp <;> rfl

theorem keep_arg4 : StableHlo.after hostOps1 Wv (Proc.devRef .tc main_arg4) = Wv (Proc.devRef .tc main_arg4) := by
  after_results_simp <;> rfl

theorem keep_arg5 : StableHlo.after hostOps1 Wv (Proc.devRef .tc main_arg5) = Wv (Proc.devRef .tc main_arg5) := by
  after_results_simp <;> rfl

theorem keep_arg6 : StableHlo.after hostOps1 Wv (Proc.devRef .tc main_arg6) = Wv (Proc.devRef .tc main_arg6) := by
  after_results_simp <;> rfl

theorem keep_arg7 : StableHlo.after hostOps1 Wv (Proc.devRef .tc main_arg7) = Wv (Proc.devRef .tc main_arg7) := by
  after_results_simp <;> rfl

end Cert.KernelIdeal.Stretch1

end
-- ==== Proof.HostStretch3.lean ====
/-
  The host operations between the third and the fourth launch, and the one before the fifth, read from any starting
  valuation.

  The first group is the second layer's copy of the operations between the first two launches: gather the second
  product at each edge's source, scale by the edge weight, scatter-add at the target, and reshape the self-loop
  weights to a column and the second bias to a row. The last operation reshapes the classifier's bias to a 1-by-1
  array. The buffers later launches still read are not written.
-/
import proofs.«127495_j8564164788849_1_alg».proof.Proof.Gen.KernelIdeal.Launch
import proofs.«127495_j8564164788849_1_alg».proof.Proof.Gen.ReferenceIdeal.Read
import Idealize.ShloMosaic.Lib.StableHlo.Run

set_option maxRecDepth 16384
set_option maxHeartbeats 4000000

noncomputable section

namespace Cert.KernelIdeal.Stretch3

open Cert.KernelIdeal Cert.KernelIdeal.Gen
open Idealize.ShloMosaic Idealize.ShloMosaic.TcCoe Idealize.ShloMosaic.StableHlo Idealize.SL.Sem

variable (Wv : Valuation τ sig (Elt Ideal))

/-- The aggregated messages: the layer's product gathered at each edge's source, scaled by the edge weight and
    scatter-added at the edge's target, from the four buffers the operations read. -/
theorem agg (x0 : (⟨Cert.ReferenceIdeal.S100000x32, .f32⟩ : BufTy).Contents (Elt Ideal)) (x1 : (⟨Cert.ReferenceIdeal.S2x3200000, .i32⟩ : BufTy).Contents (Elt Ideal)) (x2 : (⟨Cert.ReferenceIdeal.S32x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal))
    (hh : Wv (Proc.devRef .tc main_v45) = Cert.ReferenceIdeal.Read.val_main_v50 (F := Ideal) x0 x1 x2 x3 x4)
    (hs : Wv (Proc.devRef .tc main_v1) = Cert.ReferenceIdeal.Read.val_main_v1 (F := Ideal) x1)
    (ht : Wv (Proc.devRef .tc main_v3) = Cert.ReferenceIdeal.Read.val_main_v3 (F := Ideal) x1)
    (hw : Wv (Proc.devRef .tc main_v25) = Cert.ReferenceIdeal.Read.val_main_v72 (F := Ideal) x1) :
    StableHlo.after hostOps3 Wv (Proc.devRef .tc main_v58) = Cert.ReferenceIdeal.Read.val_main_v85 (F := Ideal) x0 x1 x2 x3 x4 := by
  after_results_simp
  rw [hh, hs, ht, hw]
  rfl

/-- The self-loop weights as a column. -/
theorem selfColumn : StableHlo.after hostOps3 Wv (Proc.devRef .tc main_v59)
    = shapeCast S100000x1 (Wv (Proc.devRef .tc main_v27)) shapeCasts_S100000_S100000x1 := by
  after_results_simp <;> rfl

/-- The second bias as a row. -/
theorem biasRow : StableHlo.after hostOps3 Wv (Proc.devRef .tc main_v60)
    = shapeCast S1x64 (Wv (Proc.devRef .tc main_arg5)) shapeCasts_S64_S1x64 := by
  after_results_simp <;> rfl

theorem keep_product : StableHlo.after hostOps3 Wv (Proc.devRef .tc main_v45) = Wv (Proc.devRef .tc main_v45) := by
  after_results_simp <;> rfl

theorem keep_arg6 : StableHlo.after hostOps3 Wv (Proc.devRef .tc main_arg6) = Wv (Proc.devRef .tc main_arg6) := by
  after_results_simp <;> rfl

theorem keep_arg7 : StableHlo.after hostOps3 Wv (Proc.devRef .tc main_arg7) = Wv (Proc.devRef .tc main_arg7) := by
  after_results_simp <;> rfl

end Cert.KernelIdeal.Stretch3

namespace Cert.KernelIdeal.Stretch4

open Cert.KernelIdeal Cert.KernelIdeal.Gen
open Idealize.ShloMosaic Idealize.ShloMosaic.TcCoe Idealize.ShloMosaic.StableHlo Idealize.SL.Sem

variable (Wv : Valuation τ sig (Elt Ideal))

/-- The classifier's bias as a 1-by-1 array. -/
theorem biasCell : StableHlo.after hostOps4 Wv (Proc.devRef .tc main_v62)
    = shapeCast S1x1 (Wv (Proc.devRef .tc main_arg7)) shapeCasts_S1_S1x1 := by
  after_results_simp <;> rfl

theorem keep_layer : StableHlo.after hostOps4 Wv (Proc.devRef .tc main_v61) = Wv (Proc.devRef .tc main_v61) := by
  after_results_simp <;> rfl

theorem keep_arg6 : StableHlo.after hostOps4 Wv (Proc.devRef .tc main_arg6) = Wv (Proc.devRef .tc main_arg6) := by
  after_results_simp <;> rfl

end Cert.KernelIdeal.Stretch4

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibDotStd.lean ====
/-
  The index maps of a plain matrix product's dimension numbers.

  For dimension numbers with no batch axes, one free axis on each side and one contracted axis on each side — the shape
  of every row-times-column product — the left operand's free coordinate is the result's first coordinate and the
  right operand's free coordinate is the result's second, whatever the contraction position is. Together with the
  library's facts for the contracted coordinate these are the four index facts a sum-of-products reading needs.
-/
import Idealize.ShloMosaic.PureOps.Dims

namespace Cert.Lib.DotStd

open Idealize.ShloMosaic

variable {sl sr so : Shape} (d : DotDims sl sr so)

/-- With no batch axis and `a` the one free axis of the left operand, the left index on `a` is the result's first
    coordinate. -/
theorem lhsIdx_free (a : Fin sl.rank) (hb : d.lhsBatch = []) (hn : d.lhsNonContracting = [a]) (h0 : 0 < so.rank)
    (j : so.Idx) (c : d.contr.Idx) : (d.lhsIdx j c a).val = (j ⟨0, h0⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and `a` the one free axis of the right operand, the right index on
    `a` is the result's second coordinate. -/
theorem rhsIdx_free (a : Fin sr.rank) (hb : d.rhsBatch = []) (hlb : d.lhsBatch = []) (al : Fin sl.rank)
    (hln : d.lhsNonContracting = [al]) (hn : d.rhsNonContracting = [a]) (h1 : 1 < so.rank)
    (j : so.Idx) (c : d.contr.Idx) : (d.rhsIdx j c a).val = (j ⟨1, h1⟩).val := by
  unfold DotDims.rhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Cert.Lib.DotStd
-- ==== Proof.LibStdMatmul.lean ====
/-
  A matrix product into a zero accumulator whose dimension numbers are the standard ones — no batch axis, the left
  operand's columns contracted against the right operand's rows, the left operand's rows and the right operand's
  columns free — read at an index.

  For an n-by-K array times a K-by-M array with those dimension numbers, the entry at (p, q) of the product added to
  a zero array is the sum over k of left(p, k) · right(k, q). The record's six lists are taken as hypotheses; a printed
  record proves each by unfolding.
-/
import proofs.«127495_j8564164788849_1_alg».proof.Proof.LibMatmul
import proofs.«127495_j8564164788849_1_alg».proof.Proof.LibDotStd

noncomputable section

open scoped BigOperators

namespace Cert.Lib.StdMatmul

open Idealize.ShloMosaic Idealize.ShloMosaic.ValueIdx

/-- The kernel's matrix product into the zero splat, standard dimension numbers, at the ideal values, read at (p, q). -/
theorem matmul_std_ix2 {n K M : ℕ} {φ₁ φ₂ : FTy}
    (d : DotDims (⟨2, ![n, K]⟩ : Shape) (⟨2, ![K, M]⟩ : Shape) (⟨2, ![n, M]⟩ : Shape)) (prec : Option ContractPrecision)
    (hlc : d.lhsContracting = [1]) (hrc : d.rhsContracting = [0]) (hln : d.lhsNonContracting = [0]) (hrn : d.rhsNonContracting = [1])
    (hlb : d.lhsBatch = []) (hrb : d.rhsBatch = [])
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  have hr : d.contr.rank = 1 := by rw [d.rank_contr, hlc]; rfl
  have hs : d.contr.size ⟨0, by omega⟩ = K := by
    unfold DotDims.contr
    simp [hlc, Shape.ofList]
  refine Cert.Lib.Matmul.matmul_zero_ix2 d prec hr hs ?_ ?_ ?_ ?_ lhs rhs p q
  · intro j c; exact Cert.Lib.DotStd.lhsIdx_free d 0 hlb hln Nat.zero_lt_two j c
  · intro j c; exact d.lhsIdx_val_of_single hlc j c
  · intro j c; exact d.rhsIdx_val_of_single hrc j c
  · intro j c; exact Cert.Lib.DotStd.rhsIdx_free d 1 hrb hlb 0 hln hrn Nat.one_lt_two j c

end Cert.Lib.StdMatmul

end
-- ==== Proof.Region0.lean ====
/-
  The first grid launch: the node features times the first layer's weights, fifty row tiles of 2000 rows.

  At grid point t the body loads rows 2000·t … 2000·t + 1999 of the 100000-by-32 feature array and the whole 32-by-64
  weight array, multiplies them into a zero accumulator, and stores the 2000-by-64 product, which is written back as
  rows 2000·t … of the output. An entry of a product depends only on its own row of the left factor, so the tile
  written at point t is the restriction to those rows of ONE function of the two whole arrays: entry (r, q) is the sum
  over k of features(r, k) · weights(k, q). The fifty tiles cover every row, so after the launch the output array is
  that function, whatever the arrays held when the launch was entered.
-/
import proofs.«127495_j8564164788849_1_alg».proof.Proof.Gen.KernelIdeal.Frame
import proofs.«127495_j8564164788849_1_alg».proof.Proof.LibStdMatmul
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open scoped BigOperators

/-- The rows of `x` times `w`: entry `(r, q)` is the sum over `k` of `x (r, k) · w (k, q)`. -/
def rowsTimes (x : S100000x32.Idx → EReal) (w : S32x64.Idx → EReal) : S100000x64.Idx → EReal :=
  fun i => ∑ k : Fin 32, x (ix2 ⟨(i 0).val, (i 0).isLt⟩ k) * w (ix2 k ⟨(i 1).val, (i 1).isLt⟩)

/-- The body's product of a 2000-row tile with the weights, at `(p, q)`: the casts to the narrow format are the
    identity on extended reals, and the product into zero is the plain sum. -/
theorem tile_apply (x0 : Vec Ideal S2000x32 .f32) (x1 : Vec Ideal S32x64 .f32) (y : S2000x64.Idx) :
    k0_pay1 (F := Ideal) x0 x1 y
      = ∑ k : Fin 32, x0 (ix2 ⟨(y 0).val, (y 0).isLt⟩ k) * x1 (ix2 k ⟨(y 1).val, (y 1).isLt⟩) := by
  obtain ⟨p, q, rfl⟩ : ∃ (p : Fin 2000) (q : Fin 64), y = ix2 p q := ⟨y 0, y 1, eq_ix2 y⟩
  unfold k0_pay1
  exact Cert.Lib.StdMatmul.matmul_std_ix2 dot_S2000x32_S32x64_S2000x64_1_0_0_1_n_n none rfl rfl rfl rfl rfl rfl _ _ p q

theorem origin : (![0, 0] : Fin 2 → Nat) = fun _ => 0 := funext fun a => by fin_cases a <;> rfl

/-- Where the three windows' blocks sit at point `t`: the feature tile and the output tile at row block `t`, the
    weights whole. -/
theorem tiles : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is rows `2000·t …` of `rowsTimes` of the two arrays as the launch finds them. -/
theorem flushed_eq (c : Dev nD) (t : Fin cfg0.N) :
    (dat0 V c).flushed 2 t
      = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero origin]
  simp only [View.ld_unit_zero (S := S2000x32) origin, View.ld_unit_zero (S := S32x64) origin]
  obtain ⟨a0, a1, b0, b1, o0, o1⟩ := tiles t
  funext j
  show k0_pay1 (F := Ideal) (iblk0 V c 0 t) (iblk0 V c 1 t) j
    = rowsTimes (V c main_arg0) (V c main_arg2) (((cfg0.win 2).blk t).view.emb j)
  refine (tile_apply (iblk0 V c 0 t) (iblk0 V c 1 t) j).trans ?_
  refine Finset.sum_congr rfl fun k _ => ?_
  have hj0 : (j 0).val < 2000 := (j 0).isLt
  have hj1 : (j 1).val < 64 := (j 1).isLt
  have hk : k.val < 32 := k.isLt
  have e0 : iblk0 V c 0 t (ix2 ⟨(j 0).val, (j 0).isLt⟩ k)
      = V c main_arg0 (ix2 ⟨((((cfg0.win 2).blk t).view.emb j) 0).val, ((((cfg0.win 2).blk t).view.emb j) 0).isLt⟩ k) := by
    show V c main_arg0 (((cfg0.win 0).blk t).view.emb (ix2 ⟨(j 0).val, (j 0).isLt⟩ k)) = _
    refine congrArg (V c main_arg0) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 32 + 1 * k.val = k.val
      omega
  have e1 : iblk0 V c 1 t (ix2 k ⟨(j 1).val, (j 1).isLt⟩)
      = V c main_arg2 (ix2 k ⟨((((cfg0.win 2).blk t).view.emb j) 1).val, ((((cfg0.win 2).blk t).view.emb j) 1).isLt⟩) := by
    show V c main_arg2 (((cfg0.win 1).blk t).view.emb (ix2 k ⟨(j 1).val, (j 1).isLt⟩)) = _
    refine congrArg (V c main_arg2) (funext fun a => Fin.ext ?_)
    match a with
    | ⟨0, _⟩ =>
      show win0_1.index t (0 : Fin 2) * 32 + 1 * k.val = k.val
      omega
    | ⟨1, _⟩ =>
      show win0_1.index t (1 : Fin 2) * 64 + 1 * (j 1).val = win0_2.index t (1 : Fin 2) * 64 + 1 * (j 1).val
      omega
  rw [e0, e1]

/-- An index of the output is in point `t`'s tile iff each coordinate is in the tile's range on its axis. -/
theorem mem_tile (t : Fin cfg0.N) (i : S100000x64.Idx) :
    i ∈ ((cfg0.win 2).blk t).view.set
      ↔ ∀ a : Fin 2, win0_2.index t a * S2000x64.size a ≤ (i a).val ∧ (i a).val < win0_2.index t a * S2000x64.size a + S2000x64.size a := by
  show i ∈ ((View.whole main_v28).slice (win0_2.rect t)).set ↔ _
  rw [View.set_slice_whole, Rect.mem_set_unit]
  exact Iff.rfl

/-- Every index of the output is in the tile of the point that is its row divided by 2000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  obtain ⟨a0, a1, b0, b1, o0, o1⟩ := tiles t
  have ht : t.val = (i 0).val / 2000 := rfl
  refine ⟨t, flush0_2 t, ?_⟩
  rw [mem_tile]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 64 ≤ (i 1).val ∧ (i 1).val < win0_2.index t (1 : Fin 2) * 64 + 64
    omega

/-- After the launch the output array is `rowsTimes` of the two input arrays as the launch found them. -/
theorem array_eq (c : Dev nD) :
    (dat0 V c).arrAt 2 cfg0.N = rowsTimes (V c main_arg0) (V c main_arg2) :=
  (dat0 V c).arrAt_eq_of_cover 2 (rowsTimes (V c main_arg0) (V c main_arg2)) (fun t _ => flushed_eq V c t) covered

end Cert.KernelIdeal.Region0

end
-- ==== Proof.LibColumnLayout.lean ====
/-
  Column forms of two layout operations, read at an index, and the two float words a rectifier and a logistic spell.

  A length-a vector reshaped to an a-by-1 column keeps its entries in order, so the column's entry (i, 0) is the
  vector's entry i. An a-by-1 column broadcast along a new second axis of extent b repeats each entry along its row,
  so the entry (p, c) of the result is the column's entry (p, 0). (The row forms — a leading unit axis, and a 1-by-b row
  repeated down a columns — are the library's.) The float words 0x00000000 and 0x3F800000 denote the reals 0 and 1.
-/
import Idealize.ShloMosaic.Lib.Pipeline.Value
import Idealize.ShloMosaic.Lib.ValueIdx
import Idealize.ShloMosaic.Lib.ValueLayout
import Idealize.ShloMosaic.PureOps.Ideal

noncomputable section

namespace Cert.Lib.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of `+0.0` denotes the real zero. -/
theorem ofBits_zero : Ideal.ofBits .f32 0x00000000#32 = 0 := by
  simp [Ideal.ofBits, Ideal.ieee]

/-- The word of `1.0` denotes the real one. -/
theorem ofBits_one : Ideal.ofBits .f32 0x3F800000#32 = 1 := by
  simp [Ideal.ofBits, Ideal.ieee, -EReal.coe_mul]; norm_num

end Cert.Lib.Column

end
-- ==== Proof.Region1.lean ====
/-
  The second grid launch: the first layer's combination, fifty row tiles of 2000 rows.

  At grid point t the body loads rows 2000·t … 2000·t + 1999 of the aggregated messages, of the layer's product and of
  the self-loop weight column, and the whole 1-by-64 bias row; it computes, entry by entry,
  max((aggregated + product · weight of the row) + bias of the column, 0) and stores the 2000-by-64 tile, written back
  as rows 2000·t … of the output. Every entry of the tile depends on the same entry of the first two arrays, on its
  row's entry of the column and on its column's entry of the bias row, so the tile is the restriction to those rows of
  ONE function of the four whole arrays, and the fifty tiles cover every row: after the launch the output array is
  that function, whatever the arrays held when the launch was entered.
-/
import proofs.«127495_j8564164788849_1_alg».proof.Proof.Gen.KernelIdeal.Frame
import proofs.«127495_j8564164788849_1_alg».proof.Proof.LibColumnLayout
import Idealize.ShloMosaic.Lib.Pipeline.Value
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem

/-- One layer's combination, entry by entry: `max((agg + h · sn of the row) + b of the column, 0)`. -/
def combine (agg h : S100000x64.Idx → EReal) (sn : S100000x1.Idx → EReal) (b : S1x64.Idx → EReal) : S100000x64.Idx → EReal :=
  fun i => max ((agg i + h i * sn (ix2 ⟨(i 0).val, (i 0).isLt⟩ (0 : Fin 1))) + b (ix2 (0 : Fin 1) ⟨(i 1).val, (i 1).isLt⟩))
    (Ideal.ofBits .f32 0x00000000#32)

/-- The body's value on a tile, at an index: the four casts to a tile's own shape are the identity, the column is
    repeated along its row and the bias row down the rows. -/
theorem tile_apply (x0 x1 : Vec Ideal S2000x64 .f32) (x2 : Vec Ideal S2000x1 .f32) (x3 : Vec Ideal S1x64 .f32) (y : S2000x64.Idx) :
    k1_pay1 (F := Ideal) x0 x1 x2 x3 y
      = max ((x0 y + x1 y * x2 (ix2 ⟨(y 0).val, (y 0).isLt⟩ (0 : Fin 1))) + x3 (ix2 (0 : Fin 1) ⟨(y 1).val, (y 1).isLt⟩))
          (Ideal.ofBits .f32 0x00000000#32) := by
  obtain ⟨p, q, rfl⟩ : ∃ (p : Fin 2000) (q : Fin 64), y = ix2 p q := ⟨y 0, y 1, eq_ix2 y⟩
  unfold k1_pay1
  simp only [shapeCast_self]
  show max ((x0 (ix2 p q) + x1 (ix2 p q) * broadcastTo S2000x64 x2 broadcasts_S2000x1_S2000x64 (ix2 p q))
      + broadcastTo S2000x64 x3 broadcasts_S1x64_S2000x64 (ix2 p q)) (Ideal.ofBits .f32 0x00000000#32) = _
  rw [Cert.Lib.Column.broadcastTo_a1_ab_apply, broadcastTo_1b_ab_apply]

theorem origin : (![0, 0] : Fin 2 → Nat) = fun _ => 0 := funext fun a => by fin_cases a <;> rfl

/-- Where the five windows' blocks sit at point `t`: the three row-tiled inputs and the output at row block `t`, the
    bias row whole. -/
theorem tiles : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point `t` writes back is rows `2000·t …` of `combine` of the four arrays as the launch finds them. -/
theorem flushed_eq (c : Dev nD) (t : Fin cfg1.N) :
    (dat1 V c).flushed 4 t
      = ((cfg1.win 4).blk t).view.read (Elt Ideal) (combine (V c main_v41) (V c main_v28) (V c main_v42) (V c main_v43)) := by
  show (cfg1.win 4).cut (grid1.coords t) ((dat1 V c).after 4 t) = _
  rw [after1_4]
  unfold out1_4
  rw [View.canon_unit_zero origin]
  simp only [View.ld_unit_zero (S := S2000x64) origin, View.ld_unit_zero (S := S2000x1) origin, View.ld_unit_zero (S := S1x64) origin]
  obtain ⟨a0, a1, b0, b1, s0, s1, r0, r1, o0, o1⟩ := tiles t
  funext j
  show k1_pay1 (F := Ideal) (iblk1 V c 0 t) (iblk1 V c 1 t) (iblk1 V c 2 t) (iblk1 V c 3 t) j
    = combine (V c main_v41) (V c main_v28) (V c main_v42) (V c main_v43) (((cfg1.win 4).blk t).view.emb j)
  refine (tile_apply (iblk1 V c 0 t) (iblk1 V c 1 t) (iblk1 V c 2 t) (iblk1 V c 3 t) j).trans ?_
  have hj0 : (j 0).val < 2000 := (j 0).isLt
  have hj1 : (j 1).val < 64 := (j 1).isLt
  have e0 : iblk1 V c 0 t j = V c main_v41 (((cfg1.win 4).blk t).view.emb j) := by
    show V c main_v41 (((cfg1.win 0).blk t).view.emb j) = _
    refine congrArg (V c main_v41) (funext fun a => Fin.ext ?_)
    match a with
    | ⟨0, _⟩ =>
      show win1_0.index t (0 : Fin 2) * 2000 + 1 * (j 0).val = win1_4.index t (0 : Fin 2) * 2000 + 1 * (j 0).val
      omega
    | ⟨1, _⟩ =>
      show win1_0.index t (1 : Fin 2) * 64 + 1 * (j 1).val = win1_4.index t (1 : Fin 2) * 64 + 1 * (j 1).val
      omega
  have e1 : iblk1 V c 1 t j = V c main_v28 (((cfg1.win 4).blk t).view.emb j) := by
    show V c main_v28 (((cfg1.win 1).blk t).view.emb j) = _
    refine congrArg (V c main_v28) (funext fun a => Fin.ext ?_)
    match a with
    | ⟨0, _⟩ =>
      show win1_1.index t (0 : Fin 2) * 2000 + 1 * (j 0).val = win1_4.index t (0 : Fin 2) * 2000 + 1 * (j 0).val
      omega
    | ⟨1, _⟩ =>
      show win1_1.index t (1 : Fin 2) * 64 + 1 * (j 1).val = win1_4.index t (1 : Fin 2) * 64 + 1 * (j 1).val
      omega
  have e2 : iblk1 V c 2 t (ix2 ⟨(j 0).val, (j 0).isLt⟩ (0 : Fin 1))
      = V c main_v42 (ix2 ⟨((((cfg1.win 4).blk t).view.emb j) 0).val, ((((cfg1.win 4).blk t).view.emb j) 0).isLt⟩ (0 : Fin 1)) := by
    show V c main_v42 (((cfg1.win 2).blk t).view.emb (ix2 ⟨(j 0).val, (j 0).isLt⟩ (0 : Fin 1))) = _
    refine congrArg (V c main_v42) (funext fun a => Fin.ext ?_)
    match a with
    | ⟨0, _⟩ =>
      show win1_2.index t (0 : Fin 2) * 2000 + 1 * (j 0).val = win1_4.index t (0 : Fin 2) * 2000 + 1 * (j 0).val
      omega
    | ⟨1, _⟩ =>
      show win1_2.index t (1 : Fin 2) * 1 + 1 * 0 = 0
      omega
  have e3 : iblk1 V c 3 t (ix2 (0 : Fin 1) ⟨(j 1).val, (j 1).isLt⟩)
      = V c main_v43 (ix2 (0 : Fin 1) ⟨((((cfg1.win 4).blk t).view.emb j) 1).val, ((((cfg1.win 4).blk t).view.emb j) 1).isLt⟩) := by
    show V c main_v43 (((cfg1.win 3).blk t).view.emb (ix2 (0 : Fin 1) ⟨(j 1).val, (j 1).isLt⟩)) = _
    refine congrArg (V c main_v43) (funext fun a => Fin.ext ?_)
    match a with
    | ⟨0, _⟩ =>
      show win1_3.index t (0 : Fin 2) * 1 + 1 * 0 = 0
      omega
    | ⟨1, _⟩ =>
      show win1_3.index t (1 : Fin 2) * 64 + 1 * (j 1).val = win1_4.index t (1 : Fin 2) * 64 + 1 * (j 1).val
      omega
  rw [e0, e1, e2, e3]
  rfl

/-- An index of the output is in point `t`'s tile iff each coordinate is in the tile's range on its axis. -/
theorem mem_tile (t : Fin cfg1.N) (i : S100000x64.Idx) :
    i ∈ ((cfg1.win 4).blk t).view.set
      ↔ ∀ a : Fin 2, win1_4.index t a * S2000x64.size a ≤ (i a).val ∧ (i a).val < win1_4.index t a * S2000x64.size a + S2000x64.size a := by
  show i ∈ ((View.whole main_v44).slice (win1_4.rect t)).set ↔ _
  rw [View.set_slice_whole, Rect.mem_set_unit]
  exact Iff.rfl

/-- Every index of the output is in the tile of the point that is its row divided by 2000. -/
theorem covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  obtain ⟨a0, a1, b0, b1, s0, s1, r0, r1, o0, o1⟩ := tiles t
  have ht : t.val = (i 0).val / 2000 := rfl
  refine ⟨t, flush1_4 t, ?_⟩
  rw [mem_tile]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 64 ≤ (i 1).val ∧ (i 1).val < win1_4.index t (1 : Fin 2) * 64 + 64
    omega

/-- After the launch the output array is `combine` of the four input arrays as the launch found them. -/
theorem array_eq (c : Dev nD) :
    (dat1 V c).arrAt 4 cfg1.N = combine (V c main_v41) (V c main_v28) (V c main_v42) (V c main_v43) :=
  (dat1 V c).arrAt_eq_of_cover 4 (combine (V c main_v41) (V c main_v28) (V c main_v42) (V c main_v43))
    (fun t _ => flushed_eq V c t) covered

end Cert.KernelIdeal.Region1

end
-- ==== Proof.Region2.lean ====
/-
  The third grid launch: the first layer's activations times the second layer's weights, fifty row tiles of 2000 rows.

  At grid point t the body loads rows 2000·t … 2000·t + 1999 of the 100000-by-64 activation array and the whole
  64-by-64 weight array, multiplies them into a zero accumulator, and stores the 2000-by-64 product, written back as
  rows 2000·t … of the output. The tile written at point t is the restriction to those rows of one function of the
  two whole arrays — entry (r, q) is the sum over k of activations(r, k) · weights(k, q) — and the fifty tiles cover
  every row, so after the launch the output array is that function.
-/
import proofs.«127495_j8564164788849_1_alg».proof.Proof.Gen.KernelIdeal.Frame
import proofs.«127495_j8564164788849_1_alg».proof.Proof.LibStdMatmul
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open scoped BigOperators

/-- The rows of `x` times `w`: entry `(r, q)` is the sum over `k` of `x (r, k) · w (k, q)`. -/
def rowsTimes (x : S100000x64.Idx → EReal) (w : S64x64.Idx → EReal) : S100000x64.Idx → EReal :=
  fun i => ∑ k : Fin 64, x (ix2 ⟨(i 0).val, (i 0).isLt⟩ k) * w (ix2 k ⟨(i 1).val, (i 1).isLt⟩)

/-- The body's product of a 2000-row tile with the weights, at `(p, q)`: the cast to the tile's own shape and the casts
    to the narrow format are the identity on extended reals, and the product into zero is the plain sum. -/
theorem tile_apply (x0 : Vec Ideal S2000x64 .f32) (x1 : Vec Ideal S64x64 .f32) (y : S2000x64.Idx) :
    k2_pay1 (F := Ideal) x0 x1 y
      = ∑ k : Fin 64, x0 (ix2 ⟨(y 0).val, (y 0).isLt⟩ k) * x1 (ix2 k ⟨(y 1).val, (y 1).isLt⟩) := by
  obtain ⟨p, q, rfl⟩ : ∃ (p : Fin 2000) (q : Fin 64), y = ix2 p q := ⟨y 0, y 1, eq_ix2 y⟩
  unfold k2_pay1
  rw [shapeCast_self]
  exact Cert.Lib.StdMatmul.matmul_std_ix2 dot_S2000x64_S64x64_S2000x64_1_0_0_1_n_n none rfl rfl rfl rfl rfl rfl _ _ p q

theorem origin : (![0, 0] : Fin 2 → Nat) = fun _ => 0 := funext fun a => by fin_cases a <;> rfl

/-- Where the three windows' blocks sit at point `t`: the activation tile and the output tile at row block `t`, the
    weights whole. -/
theorem tiles : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is rows `2000·t …` of `rowsTimes` of the two arrays as the launch finds them. -/
theorem flushed_eq (c : Dev nD) (t : Fin cfg2.N) :
    (dat2 V c).flushed 2 t
      = ((cfg2.win 2).blk t).view.read (Elt Ideal) (rowsTimes (V c main_v44) (V c main_arg4)) := by
  show (cfg2.win 2).cut (grid2.coords t) ((dat2 V c).after 2 t) = _
  rw [after2_2]
  unfold out2_2
  rw [View.canon_unit_zero origin]
  simp only [View.ld_unit_zero (S := S2000x64) origin, View.ld_unit_zero (S := S64x64) origin]
  obtain ⟨a0, a1, b0, b1, o0, o1⟩ := tiles t
  funext j
  show k2_pay1 (F := Ideal) (iblk2 V c 0 t) (iblk2 V c 1 t) j
    = rowsTimes (V c main_v44) (V c main_arg4) (((cfg2.win 2).blk t).view.emb j)
  refine (tile_apply (iblk2 V c 0 t) (iblk2 V c 1 t) j).trans ?_
  refine Finset.sum_congr rfl fun k _ => ?_
  have hj0 : (j 0).val < 2000 := (j 0).isLt
  have hj1 : (j 1).val < 64 := (j 1).isLt
  have hk : k.val < 64 := k.isLt
  have e0 : iblk2 V c 0 t (ix2 ⟨(j 0).val, (j 0).isLt⟩ k)
      = V c main_v44 (ix2 ⟨((((cfg2.win 2).blk t).view.emb j) 0).val, ((((cfg2.win 2).blk t).view.emb j) 0).isLt⟩ k) := by
    show V c main_v44 (((cfg2.win 0).blk t).view.emb (ix2 ⟨(j 0).val, (j 0).isLt⟩ k)) = _
    refine congrArg (V c main_v44) (funext fun a => Fin.ext ?_)
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 64 + 1 * k.val = k.val
      omega
  have e1 : iblk2 V c 1 t (ix2 k ⟨(j 1).val, (j 1).isLt⟩)
      = V c main_arg4 (ix2 k ⟨((((cfg2.win 2).blk t).view.emb j) 1).val, ((((cfg2.win 2).blk t).view.emb j) 1).isLt⟩) := by
    show V c main_arg4 (((cfg2.win 1).blk t).view.emb (ix2 k ⟨(j 1).val, (j 1).isLt⟩)) = _
    refine congrArg (V c main_arg4) (funext fun a => Fin.ext ?_)
    match a with
    | ⟨0, _⟩ =>
      show win2_1.index t (0 : Fin 2) * 64 + 1 * k.val = k.val
      omega
    | ⟨1, _⟩ =>
      show win2_1.index t (1 : Fin 2) * 64 + 1 * (j 1).val = win2_2.index t (1 : Fin 2) * 64 + 1 * (j 1).val
      omega
  rw [e0, e1]

/-- An index of the output is in point `t`'s tile iff each coordinate is in the tile's range on its axis. -/
theorem mem_tile (t : Fin cfg2.N) (i : S100000x64.Idx) :
    i ∈ ((cfg2.win 2).blk t).view.set
      ↔ ∀ a : Fin 2, win2_2.index t a * S2000x64.size a ≤ (i a).val ∧ (i a).val < win2_2.index t a * S2000x64.size a + S2000x64.size a := by
  show i ∈ ((View.whole main_v45).slice (win2_2.rect t)).set ↔ _
  rw [View.set_slice_whole, Rect.mem_set_unit]
  exact Iff.rfl

/-- Every index of the output is in the tile of the point that is its row divided by 2000. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨a0, a1, b0, b1, o0, o1⟩ := tiles t
  have ht : t.val = (i 0).val / 2000 := rfl
  refine ⟨t, flush2_2 t, ?_⟩
  rw [mem_tile]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 64 ≤ (i 1).val ∧ (i 1).val < win2_2.index t (1 : Fin 2) * 64 + 64
    omega

/-- After the launch the output array is `rowsTimes` of the two input arrays as the launch found them. -/
theorem array_eq (c : Dev nD) :
    (dat2 V c).arrAt 2 cfg2.N = rowsTimes (V c main_v44) (V c main_arg4) :=
  (dat2 V c).arrAt_eq_of_cover 2 (rowsTimes (V c main_v44) (V c main_arg4)) (fun t _ => flushed_eq V c t) covered

end Cert.KernelIdeal.Region2

end
-- ==== Proof.Region3.lean ====
/-
  The fourth grid launch: the second layer's combination, fifty row tiles of 2000 rows.

  At grid point t the body loads rows 2000·t … 2000·t + 1999 of the aggregated messages, of the layer's product and of
  the self-loop weight column, and the whole 1-by-64 bias row; it computes, entry by entry,
  max((aggregated + product · weight of the row) + bias of the column, 0) and stores the 2000-by-64 tile, written back
  as rows 2000·t … of the output. Every entry of the tile depends on the same entry of the first two arrays, on its
  row's entry of the column and on its column's entry of the bias row, so the tile is the restriction to those rows of
  ONE function of the four whole arrays, and the fifty tiles cover every row: after the launch the output array is
  that function, whatever the arrays held when the launch was entered.
-/
import proofs.«127495_j8564164788849_1_alg».proof.Proof.Gen.KernelIdeal.Frame
import proofs.«127495_j8564164788849_1_alg».proof.Proof.LibColumnLayout
import Idealize.ShloMosaic.Lib.Pipeline.Value
import Idealize.ShloMosaic.Lib.ValueLayout

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem

/-- One layer's combination, entry by entry: `max((agg + h · sn of the row) + b of the column, 0)`. -/
def combine (agg h : S100000x64.Idx → EReal) (sn : S100000x1.Idx → EReal) (b : S1x64.Idx → EReal) : S100000x64.Idx → EReal :=
  fun i => max ((agg i + h i * sn (ix2 ⟨(i 0).val, (i 0).isLt⟩ (0 : Fin 1))) + b (ix2 (0 : Fin 1) ⟨(i 1).val, (i 1).isLt⟩))
    (Ideal.ofBits .f32 0x00000000#32)

/-- The body's value on a tile, at an index: the four casts to a tile's own shape are the identity, the column is
    repeated along its row and the bias row down the rows. -/
theorem tile_apply (x0 x1 : Vec Ideal S2000x64 .f32) (x2 : Vec Ideal S2000x1 .f32) (x3 : Vec Ideal S1x64 .f32) (y : S2000x64.Idx) :
    k3_pay1 (F := Ideal) x0 x1 x2 x3 y
      = max ((x0 y + x1 y * x2 (ix2 ⟨(y 0).val, (y 0).isLt⟩ (0 : Fin 1))) + x3 (ix2 (0 : Fin 1) ⟨(y 1).val, (y 1).isLt⟩))
          (Ideal.ofBits .f32 0x00000000#32) := by
  obtain ⟨p, q, rfl⟩ : ∃ (p : Fin 2000) (q : Fin 64), y = ix2 p q := ⟨y 0, y 1, eq_ix2 y⟩
  unfold k3_pay1
  simp only [shapeCast_self]
  show max ((x0 (ix2 p q) + x1 (ix2 p q) * broadcastTo S2000x64 x2 broadcasts_S2000x1_S2000x64 (ix2 p q))
      + broadcastTo S2000x64 x3 broadcasts_S1x64_S2000x64 (ix2 p q)) (Ideal.ofBits .f32 0x00000000#32) = _
  rw [Cert.Lib.Column.broadcastTo_a1_ab_apply, broadcastTo_1b_ab_apply]

theorem origin : (![0, 0] : Fin 2 → Nat) = fun _ => 0 := funext fun a => by fin_cases a <;> rfl

/-- Where the five windows' blocks sit at point `t`: the three row-tiled inputs and the output at row block `t`, the
    bias row whole. -/
theorem tiles : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- What point `t` writes back is rows `2000·t …` of `combine` of the four arrays as the launch finds them. -/
theorem flushed_eq (c : Dev nD) (t : Fin cfg3.N) :
    (dat3 V c).flushed 4 t
      = ((cfg3.win 4).blk t).view.read (Elt Ideal) (combine (V c main_v58) (V c main_v45) (V c main_v59) (V c main_v60)) := by
  show (cfg3.win 4).cut (grid3.coords t) ((dat3 V c).after 4 t) = _
  rw [after3_4]
  unfold out3_4
  rw [View.canon_unit_zero origin]
  simp only [View.ld_unit_zero (S := S2000x64) origin, View.ld_unit_zero (S := S2000x1) origin, View.ld_unit_zero (S := S1x64) origin]
  obtain ⟨a0, a1, b0, b1, s0, s1, r0, r1, o0, o1⟩ := tiles t
  funext j
  show k3_pay1 (F := Ideal) (iblk3 V c 0 t) (iblk3 V c 1 t) (iblk3 V c 2 t) (iblk3 V c 3 t) j
    = combine (V c main_v58) (V c main_v45) (V c main_v59) (V c main_v60) (((cfg3.win 4).blk t).view.emb j)
  refine (tile_apply (iblk3 V c 0 t) (iblk3 V c 1 t) (iblk3 V c 2 t) (iblk3 V c 3 t) j).trans ?_
  have hj0 : (j 0).val < 2000 := (j 0).isLt
  have hj1 : (j 1).val < 64 := (j 1).isLt
  have e0 : iblk3 V c 0 t j = V c main_v58 (((cfg3.win 4).blk t).view.emb j) := by
    show V c main_v58 (((cfg3.win 0).blk t).view.emb j) = _
    refine congrArg (V c main_v58) (funext fun a => Fin.ext ?_)
    match a with
    | ⟨0, _⟩ =>
      show win3_0.index t (0 : Fin 2) * 2000 + 1 * (j 0).val = win3_4.index t (0 : Fin 2) * 2000 + 1 * (j 0).val
      omega
    | ⟨1, _⟩ =>
      show win3_0.index t (1 : Fin 2) * 64 + 1 * (j 1).val = win3_4.index t (1 : Fin 2) * 64 + 1 * (j 1).val
      omega
  have e1 : iblk3 V c 1 t j = V c main_v45 (((cfg3.win 4).blk t).view.emb j) := by
    show V c main_v45 (((cfg3.win 1).blk t).view.emb j) = _
    refine congrArg (V c main_v45) (funext fun a => Fin.ext ?_)
    match a with
    | ⟨0, _⟩ =>
      show win3_1.index t (0 : Fin 2) * 2000 + 1 * (j 0).val = win3_4.index t (0 : Fin 2) * 2000 + 1 * (j 0).val
      omega
    | ⟨1, _⟩ =>
      show win3_1.index t (1 : Fin 2) * 64 + 1 * (j 1).val = win3_4.index t (1 : Fin 2) * 64 + 1 * (j 1).val
      omega
  have e2 : iblk3 V c 2 t (ix2 ⟨(j 0).val, (j 0).isLt⟩ (0 : Fin 1))
      = V c main_v59 (ix2 ⟨((((cfg3.win 4).blk t).view.emb j) 0).val, ((((cfg3.win 4).blk t).view.emb j) 0).isLt⟩ (0 : Fin 1)) := by
    show V c main_v59 (((cfg3.win 2).blk t).view.emb (ix2 ⟨(j 0).val, (j 0).isLt⟩ (0 : Fin 1))) = _
    refine congrArg (V c main_v59) (funext fun a => Fin.ext ?_)
    match a with
    | ⟨0, _⟩ =>
      show win3_2.index t (0 : Fin 2) * 2000 + 1 * (j 0).val = win3_4.index t (0 : Fin 2) * 2000 + 1 * (j 0).val
      omega
    | ⟨1, _⟩ =>
      show win3_2.index t (1 : Fin 2) * 1 + 1 * 0 = 0
      omega
  have e3 : iblk3 V c 3 t (ix2 (0 : Fin 1) ⟨(j 1).val, (j 1).isLt⟩)
      = V c main_v60 (ix2 (0 : Fin 1) ⟨((((cfg3.win 4).blk t).view.emb j) 1).val, ((((cfg3.win 4).blk t).view.emb j) 1).isLt⟩) := by
    show V c main_v60 (((cfg3.win 3).blk t).view.emb (ix2 (0 : Fin 1) ⟨(j 1).val, (j 1).isLt⟩)) = _
    refine congrArg (V c main_v60) (funext fun a => Fin.ext ?_)
    match a with
    | ⟨0, _⟩ =>
      show win3_3.index t (0 : Fin 2) * 1 + 1 * 0 = 0
      omega
    | ⟨1, _⟩ =>
      show win3_3.index t (1 : Fin 2) * 64 + 1 * (j 1).val = win3_4.index t (1 : Fin 2) * 64 + 1 * (j 1).val
      omega
  rw [e0, e1, e2, e3]
  rfl

/-- An index of the output is in point `t`'s tile iff each coordinate is in the tile's range on its axis. -/
theorem mem_tile (t : Fin cfg3.N) (i : S100000x64.Idx) :
    i ∈ ((cfg3.win 4).blk t).view.set
      ↔ ∀ a : Fin 2, win3_4.index t a * S2000x64.size a ≤ (i a).val ∧ (i a).val < win3_4.index t a * S2000x64.size a + S2000x64.size a := by
  show i ∈ ((View.whole main_v61).slice (win3_4.rect t)).set ↔ _
  rw [View.set_slice_whole, Rect.mem_set_unit]
  exact Iff.rfl

/-- Every index of the output is in the tile of the point that is its row divided by 2000. -/
theorem covered (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 50 := N_3
  let t : Fin cfg3.N := ⟨(i 0).val / 2000, by rw [hN]; omega⟩
  obtain ⟨a0, a1, b0, b1, s0, s1, r0, r1, o0, o1⟩ := tiles t
  have ht : t.val = (i 0).val / 2000 := rfl
  refine ⟨t, flush3_4 t, ?_⟩
  rw [mem_tile]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 64 ≤ (i 1).val ∧ (i 1).val < win3_4.index t (1 : Fin 2) * 64 + 64
    omega

/-- After the launch the output array is `combine` of the four input arrays as the launch found them. -/
theorem array_eq (c : Dev nD) :
    (dat3 V c).arrAt 4 cfg3.N = combine (V c main_v58) (V c main_v45) (V c main_v59) (V c main_v60) :=
  (dat3 V c).arrAt_eq_of_cover 4 (combine (V c main_v58) (V c main_v45) (V c main_v59) (V c main_v60))
    (fun t _ => flushed_eq V c t) covered

end Cert.KernelIdeal.Region3

end
-- ==== Proof.Region4.lean ====
/-
  The fifth grid launch: the classifier, fifty row tiles of 2000 rows.

  At grid point t the body loads rows 2000·t … 2000·t + 1999 of the 100000-by-64 activation array, the whole 64-by-1
  weight column and the 1-by-1 bias; it multiplies the tile by the column into a zero accumulator, adds the bias to
  every row and applies the logistic function, and stores the 2000-by-1 tile, written back as rows 2000·t … of the
  output. Entry r of the tile depends only on row r of the activations, so the tile is the restriction to those rows
  of ONE function of the three whole arrays: the logistic of (the sum over k of activations(r, k) · weights(k) plus
  the bias). The fifty tiles cover every row, so after the launch the output array is that function.
-/
import proofs.«127495_j8564164788849_1_alg».proof.Proof.Gen.KernelIdeal.Frame
import proofs.«127495_j8564164788849_1_alg».proof.Proof.LibStdMatmul
import Idealize.ShloMosaic.Lib.Pipeline.Value
import Idealize.ShloMosaic.Lib.ValueLayout

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open scoped BigOperators

/-- The classifier, row by row: the logistic of `h`'s row times the weight column, plus the bias. -/
def score (h : S100000x64.Idx → EReal) (w : S64x1.Idx → EReal) (b : S1x1.Idx → EReal) : S100000x1.Idx → EReal :=
  fun i => Ideal.logistic ((∑ k : Fin 64, h (ix2 ⟨(i 0).val, (i 0).isLt⟩ k) * w (ix2 k ⟨(i 1).val, (i 1).isLt⟩))
    + b (ix2 (0 : Fin 1) ⟨(i 1).val, (i 1).isLt⟩))

/-- The body's value on a tile, at an index: the casts are the identity on extended reals, the product into zero is the
    plain sum, the bias is repeated down the rows, and the logistic acts entry by entry. -/
theorem tile_apply (x0 : Vec Ideal S2000x64 .f32) (x1 : Vec Ideal S64x1 .f32) (x2 : Vec Ideal S1x1 .f32) (y : S2000x1.Idx) :
    k4_pay1 (F := Ideal) x0 x1 x2 y
      = Ideal.logistic ((∑ k : Fin 64, x0 (ix2 ⟨(y 0).val, (y 0).isLt⟩ k) * x1 (ix2 k ⟨(y 1).val, (y 1).isLt⟩))
          + x2 (ix2 (0 : Fin 1) ⟨(y 1).val, (y 1).isLt⟩)) := by
  obtain ⟨p, u, rfl⟩ : ∃ (p : Fin 2000) (u : Fin 1), y = ix2 p u := ⟨y 0, y 1, eq_ix2 y⟩
  unfold k4_pay1
  simp only [shapeCast_self]
  show Ideal.logistic (_ + _) = Ideal.logistic (_ + _)
  refine congrArg Ideal.logistic (congrArg₂ (· + ·) ?_ ?_)
  · exact Cert.Lib.StdMatmul.matmul_std_ix2 dot_S2000x64_S64x1_S2000x1_1_0_0_1_n_n none rfl rfl rfl rfl rfl rfl _ _ p u
  · exact broadcastTo_1b_ab_apply x2 broadcasts_S1x1_S2000x1 p u

theorem origin : (![0, 0] : Fin 2 → Nat) = fun _ => 0 := funext fun a => by fin_cases a <;> rfl

/-- Where the four windows' blocks sit at point `t`: the activation tile and the output tile at row block `t`, the
    weight column and the bias whole. -/
theorem tiles : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- What point `t` writes back is rows `2000·t …` of `score` of the three arrays as the launch finds them. -/
theorem flushed_eq (c : Dev nD) (t : Fin cfg4.N) :
    (dat4 V c).flushed 3 t
      = ((cfg4.win 3).blk t).view.read (Elt Ideal) (score (V c main_v61) (V c main_arg6) (V c main_v62)) := by
  show (cfg4.win 3).cut (grid4.coords t) ((dat4 V c).after 3 t) = _
  rw [after4_3]
  unfold out4_3
  rw [View.canon_unit_zero origin]
  simp only [View.ld_unit_zero (S := S2000x64) origin, View.ld_unit_zero (S := S64x1) origin, View.ld_unit_zero (S := S1x1) origin]
  obtain ⟨a0, a1, b0, b1, s0, s1, o0, o1⟩ := tiles t
  funext j
  show k4_pay1 (F := Ideal) (iblk4 V c 0 t) (iblk4 V c 1 t) (iblk4 V c 2 t) j
    = score (V c main_v61) (V c main_arg6) (V c main_v62) (((cfg4.win 3).blk t).view.emb j)
  refine (tile_apply (iblk4 V c 0 t) (iblk4 V c 1 t) (iblk4 V c 2 t) j).trans ?_
  have hj0 : (j 0).val < 2000 := (j 0).isLt
  have hj1 : (j 1).val < 1 := (j 1).isLt
  have e2 : iblk4 V c 2 t (ix2 (0 : Fin 1) ⟨(j 1).val, (j 1).isLt⟩)
      = V c main_v62 (ix2 (0 : Fin 1) ⟨((((cfg4.win 3).blk t).view.emb j) 1).val, ((((cfg4.win 3).blk t).view.emb j) 1).isLt⟩) := by
    show V c main_v62 (((cfg4.win 2).blk t).view.emb (ix2 (0 : Fin 1) ⟨(j 1).val, (j 1).isLt⟩)) = _
    refine congrArg (V c main_v62) (funext fun a => Fin.ext ?_)
    match a with
    | ⟨0, _⟩ =>
      show win4_2.index t (0 : Fin 2) * 1 + 1 * 0 = 0
      omega
    | ⟨1, _⟩ =>
      show win4_2.index t (1 : Fin 2) * 1 + 1 * (j 1).val = win4_3.index t (1 : Fin 2) * 1 + 1 * (j 1).val
      omega
  show Ideal.logistic (_ + _) = Ideal.logistic (_ + _)
  refine congrArg Ideal.logistic (congrArg₂ (· + ·) (Finset.sum_congr rfl fun k _ => ?_) e2)
  have hk : k.val < 64 := k.isLt
  have e0 : iblk4 V c 0 t (ix2 ⟨(j 0).val, (j 0).isLt⟩ k)
      = V c main_v61 (ix2 ⟨((((cfg4.win 3).blk t).view.emb j) 0).val, ((((cfg4.win 3).blk t).view.emb j) 0).isLt⟩ k) := by
    show V c main_v61 (((cfg4.win 0).blk t).view.emb (ix2 ⟨(j 0).val, (j 0).isLt⟩ k)) = _
    refine congrArg (V c main_v61) (funext fun a => Fin.ext ?_)
    match a with
    | ⟨0, _⟩ =>
      show win4_0.index t (0 : Fin 2) * 2000 + 1 * (j 0).val = win4_3.index t (0 : Fin 2) * 2000 + 1 * (j 0).val
      omega
    | ⟨1, _⟩ =>
      show win4_0.index t (1 : Fin 2) * 64 + 1 * k.val = k.val
      omega
  have e1 : iblk4 V c 1 t (ix2 k ⟨(j 1).val, (j 1).isLt⟩)
      = V c main_arg6 (ix2 k ⟨((((cfg4.win 3).blk t).view.emb j) 1).val, ((((cfg4.win 3).blk t).view.emb j) 1).isLt⟩) := by
    show V c main_arg6 (((cfg4.win 1).blk t).view.emb (ix2 k ⟨(j 1).val, (j 1).isLt⟩)) = _
    refine congrArg (V c main_arg6) (funext fun a => Fin.ext ?_)
    match a with
    | ⟨0, _⟩ =>
      show win4_1.index t (0 : Fin 2) * 64 + 1 * k.val = k.val
      omega
    | ⟨1, _⟩ =>
      show win4_1.index t (1 : Fin 2) * 1 + 1 * (j 1).val = win4_3.index t (1 : Fin 2) * 1 + 1 * (j 1).val
      omega
  rw [e0, e1]

/-- An index of the output is in point `t`'s tile iff each coordinate is in the tile's range on its axis. -/
theorem mem_tile (t : Fin cfg4.N) (i : S100000x1.Idx) :
    i ∈ ((cfg4.win 3).blk t).view.set
      ↔ ∀ a : Fin 2, win4_3.index t a * S2000x1.size a ≤ (i a).val ∧ (i a).val < win4_3.index t a * S2000x1.size a + S2000x1.size a := by
  show i ∈ ((View.whole main_v63).slice (win4_3.rect t)).set ↔ _
  rw [View.set_slice_whole, Rect.mem_set_unit]
  exact Iff.rfl

/-- Every index of the output is in the tile of the point that is its row divided by 2000. -/
theorem covered (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  have hN : cfg4.N = 50 := N_4
  let t : Fin cfg4.N := ⟨(i 0).val / 2000, by rw [hN]; omega⟩
  obtain ⟨a0, a1, b0, b1, s0, s1, o0, o1⟩ := tiles t
  have ht : t.val = (i 0).val / 2000 := rfl
  refine ⟨t, flush4_3 t, ?_⟩
  rw [mem_tile]
  intro a
  match a with
  | ⟨0, _⟩ =>
    show win4_3.index t (0 : Fin 2) * 2000 ≤ (i 0).val ∧ (i 0).val < win4_3.index t (0 : Fin 2) * 2000 + 2000
    omega
  | ⟨1, _⟩ =>
    show win4_3.index t (1 : Fin 2) * 1 ≤ (i 1).val ∧ (i 1).val < win4_3.index t (1 : Fin 2) * 1 + 1
    omega

/-- After the launch the output array is `score` of the three input arrays as the launch found them. -/
theorem array_eq (c : Dev nD) :
    (dat4 V c).arrAt 3 cfg4.N = score (V c main_v61) (V c main_arg6) (V c main_v62) :=
  (dat4 V c).arrAt_eq_of_cover 3 (score (V c main_v61) (V c main_arg6) (V c main_v62)) (fun t _ => flushed_eq V c t) covered

end Cert.KernelIdeal.Region4

end
-- ==== Proof.StageMatch.lean ====
/-
  Each launch's whole-array function, fed the reference's intermediate arrays, is the reference's next intermediate.

  The reference is a straight line of array operations; name its intermediate arrays by the operation that writes
  them. Entry by entry:
    * the rows of the features times the first weights are the reference's first matrix product, both being the sum
      over k of features(r, k) · weights(k, q) — and the same for the second product and the classifier's;
    * one layer's combination max((agg + h · s(r)) + b(q), 0), with s the self-loop weights reshaped to a column and b
      the bias reshaped to a row, is the reference's max(((agg + h · S) + B), 0) with S the same weights broadcast
      along the rows and B the bias broadcast down the columns, because the reshapes and the broadcasts read the
      same entry s(r) and b(q);
    * the classifier's logistic of (row · weights + bias) is the reference's 1 / (1 + exp(−(row · weights + bias))):
      on the extended reals the logistic IS that quotient, and the word 0x3F800000 the reference spells denotes 1.
  No law of arithmetic beyond these readings is used, so no finiteness is needed.
-/
import proofs.«127495_j8564164788849_1_alg».proof.Proof.Region0
import proofs.«127495_j8564164788849_1_alg».proof.Proof.Region1
import proofs.«127495_j8564164788849_1_alg».proof.Proof.Region2
import proofs.«127495_j8564164788849_1_alg».proof.Proof.Region3
import proofs.«127495_j8564164788849_1_alg».proof.Proof.Region4
import proofs.«127495_j8564164788849_1_alg».proof.Proof.LibColumnLayout
import proofs.«127495_j8564164788849_1_alg».proof.Proof.Gen.ReferenceIdeal.Read
import Idealize.ShloMosaic.Lib.ValueLayout

set_option maxRecDepth 16384

noncomputable section

namespace Cert.StageMatch

open Cert.ReferenceIdeal Cert.ReferenceIdeal.Read
open Idealize.ShloMosaic Idealize.ShloMosaic.ValueIdx
open scoped BigOperators

/-- The first product. -/
theorem product1 (x0 : (⟨S100000x32, .f32⟩ : BufTy).Contents (Elt Ideal)) (x2 : (⟨S32x64, .f32⟩ : BufTy).Contents (Elt Ideal)) :
    Cert.KernelIdeal.Region0.rowsTimes x0 x2 = val_main_v4 (F := Ideal) x0 x2 := by
  funext i
  rw [val_main_v4_apply]
  unfold Cert.KernelIdeal.Region0.rowsTimes
  refine Finset.sum_congr rfl fun k _ => ?_
  refine congrArg₂ (· * ·) (congrArg x0 (funext fun a => ?_)) (congrArg x2 (funext fun a => ?_))
  · match a with
    | ⟨0, _⟩ => rfl
    | ⟨1, _⟩ => rfl
  · match a with
    | ⟨0, _⟩ => rfl
    | ⟨1, _⟩ => rfl

/-- The first layer's combination. -/
theorem layer1 (x0 : (⟨S100000x32, .f32⟩ : BufTy).Contents (Elt Ideal)) (x1 : (⟨S2x3200000, .i32⟩ : BufTy).Contents (Elt Ideal)) (x2 : (⟨S32x64, .f32⟩ : BufTy).Contents (Elt Ideal)) (x3 : (⟨S64, .f32⟩ : BufTy).Contents (Elt Ideal))
    (hc : Cert.KernelIdeal.S100000.ShapeCasts Cert.KernelIdeal.S100000x1) (hr : Cert.KernelIdeal.S64.ShapeCasts Cert.KernelIdeal.S1x64) :
    Cert.KernelIdeal.Region1.combine (val_main_v39 (F := Ideal) x0 x1 x2) (val_main_v4 (F := Ideal) x0 x2)
        (shapeCast Cert.KernelIdeal.S100000x1 (val_main_v41 (F := Ideal) x1) hc)
        (shapeCast Cert.KernelIdeal.S1x64 x3 hr)
      = val_main_v49 (F := Ideal) x0 x1 x2 x3 := by
  funext i
  rw [val_main_v49_apply, val_main_v48_apply, val_main_v45_apply, val_main_v44_apply, val_main_v43_apply,
    val_main_v42_apply, val_main_v47_apply, val_main_v46_apply, val_main_call0_v0_apply, val_main_call0_cst_apply]
  unfold Cert.KernelIdeal.Region1.combine
  rw [Cert.Lib.Column.shapeCast_a_a1_apply, shapeCast_a_1a_apply]
  have e1 : (ix1 (⟨(i 0).val, (i 0).isLt⟩ : Fin 100000) : S100000.Idx) = idx_main_v42 (idx_main_v43 i) :=
    funext fun a => by match a with | ⟨0, _⟩ => rfl
  have e2 : (ix1 (⟨(i 1).val, (i 1).isLt⟩ : Fin 64) : S64.Idx) = idx_main_v46 (idx_main_v47 i) :=
    funext fun a => by match a with | ⟨0, _⟩ => rfl
  rw [e1, e2]
  rfl

/-- The second product. -/
theorem product2 (x0 : (⟨S100000x32, .f32⟩ : BufTy).Contents (Elt Ideal)) (x1 : (⟨S2x3200000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) :
    Cert.KernelIdeal.Region2.rowsTimes (val_main_v49 (F := Ideal) x0 x1 x2 x3) x4 = val_main_v50 (F := Ideal) x0 x1 x2 x3 x4 := by
  funext i
  rw [val_main_v50_apply]
  unfold Cert.KernelIdeal.Region2.rowsTimes
  refine Finset.sum_congr rfl fun k _ => ?_
  refine congrArg₂ (· * ·) (congrArg (val_main_v49 (F := Ideal) x0 x1 x2 x3) (funext fun a => ?_)) (congrArg x4 (funext fun a => ?_))
  · match a with
    | ⟨0, _⟩ => rfl
    | ⟨1, _⟩ => rfl
  · match a with
    | ⟨0, _⟩ => rfl
    | ⟨1, _⟩ => rfl

/-- The second layer's combination. -/
theorem layer2 (x0 : (⟨S100000x32, .f32⟩ : BufTy).Contents (Elt Ideal)) (x1 : (⟨S2x3200000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
    (hc : Cert.KernelIdeal.S100000.ShapeCasts Cert.KernelIdeal.S100000x1) (hr : Cert.KernelIdeal.S64.ShapeCasts Cert.KernelIdeal.S1x64) :
    Cert.KernelIdeal.Region3.combine (val_main_v85 (F := Ideal) x0 x1 x2 x3 x4) (val_main_v50 (F := Ideal) x0 x1 x2 x3 x4)
        (shapeCast Cert.KernelIdeal.S100000x1 (val_main_v87 (F := Ideal) x1) hc)
        (shapeCast Cert.KernelIdeal.S1x64 x5 hr)
      = val_main_v95 (F := Ideal) x0 x1 x2 x3 x4 x5 := by
  funext i
  rw [val_main_v95_apply, val_main_v94_apply, val_main_v91_apply, val_main_v90_apply, val_main_v89_apply,
    val_main_v88_apply, val_main_v93_apply, val_main_v92_apply, val_main_call1_v0_apply, val_main_call1_cst_apply]
  unfold Cert.KernelIdeal.Region3.combine
  rw [Cert.Lib.Column.shapeCast_a_a1_apply, shapeCast_a_1a_apply]
  have e1 : (ix1 (⟨(i 0).val, (i 0).isLt⟩ : Fin 100000) : S100000.Idx) = idx_main_v88 (idx_main_v89 i) :=
    funext fun a => by match a with | ⟨0, _⟩ => rfl
  have e2 : (ix1 (⟨(i 1).val, (i 1).isLt⟩ : Fin 64) : S64.Idx) = idx_main_v92 (idx_main_v93 i) :=
    funext fun a => by match a with | ⟨0, _⟩ => rfl
  rw [e1, e2]
  rfl

/-- The classifier. -/
theorem classifier (x0 : (⟨S100000x32, .f32⟩ : BufTy).Contents (Elt Ideal)) (x1 : (⟨S2x3200000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal))
    (hu : Cert.KernelIdeal.S1.ShapeCasts Cert.KernelIdeal.S1x1) :
    Cert.KernelIdeal.Region4.score (val_main_v95 (F := Ideal) x0 x1 x2 x3 x4 x5) x6
        (shapeCast Cert.KernelIdeal.S1x1 x7 hu)
      = val_main_v105 (F := Ideal) x0 x1 x2 x3 x4 x5 x6 x7 := by
  funext i
  rw [val_main_v105_apply, val_main_v104_apply, val_main_cst_21_apply, val_main_v103_apply, val_main_v102_apply,
    val_main_cst_20_apply, val_main_v101_apply, val_main_v100_apply, val_main_v99_apply, val_main_v96_apply,
    val_main_v98_apply, val_main_v97_apply]
  unfold Cert.KernelIdeal.Region4.score
  rw [shapeCast_a_1a_apply]
  have e1 : (ix1 (⟨(i 1).val, (i 1).isLt⟩ : Fin 1) : S1.Idx) = idx_main_v97 (idx_main_v98 i) :=
    funext fun a => by
      match a with
      | ⟨0, _⟩ =>
        have h1 : (i 1).val < 1 := (i 1).isLt
        exact Fin.ext (by show (i 1).val = 0; omega)
  rw [e1]
  have es : (∑ k : Fin 64, val_main_v95 (F := Ideal) x0 x1 x2 x3 x4 x5 (ix2 ⟨(i 0).val, (i 0).isLt⟩ k) * x6 (ix2 k ⟨(i 1).val, (i 1).isLt⟩))
      = ∑ k : Fin 64, val_main_v95 (F := Ideal) x0 x1 x2 x3 x4 x5 (lidx_main_v96 i k) * x6 (ridx_main_v96 i k) := by
    refine Finset.sum_congr rfl fun k _ => ?_
    refine congrArg₂ (· * ·) (congrArg (val_main_v95 (F := Ideal) x0 x1 x2 x3 x4 x5) (funext fun a => ?_)) (congrArg x6 (funext fun a => ?_))
    · match a with
      | ⟨0, _⟩ => rfl
      | ⟨1, _⟩ => rfl
    · match a with
      | ⟨0, _⟩ => rfl
      | ⟨1, _⟩ => rfl
  rw [es]
  have one : (FloatOps.ofBits (F := Ideal) .f32 0x3F800000#32 : Ideal .f32) = (1 : EReal) := Cert.Lib.Column.ofBits_one
  rw [one]
  generalize (∑ k : Fin 64, val_main_v95 (F := Ideal) x0 x1 x2 x3 x4 x5 (lidx_main_v96 i k) * x6 (ridx_main_v96 i k)) = s
  generalize x7 (idx_main_v97 (idx_main_v98 i)) = b
  rfl

end Cert.StageMatch

end
-- ==== Proof.Chain.lean ====
/-
  The kernel program's result, read through its nine segments, is the reference's last intermediate array.

  Write W0 … W9 for the buffer contents at the segment boundaries: W0 the launch memory; a stretch of host operations
  maps the valuation before it to the one after it; a launch replaces its windows' arrays by what its write-backs leave
  and keeps every other buffer. Going forward:
    * after the first stretch the source row, target row, edge weights and self-loop weights are the reference's
      intermediates of the edge list, and they and the arguments are carried unchanged to wherever they are read;
    * the first launch leaves the reference's first product (rows of features times weights);
    * the second stretch turns it into the reference's aggregated messages, and the second launch combines them with
      the product, the self-loop column and the bias row into the reference's first activations;
    * the third launch leaves the reference's second product, the third stretch its aggregated messages, the fourth
      launch the second activations;
    * the fifth launch leaves the logistic of the classifier's affine map, the reference's result.
-/
import proofs.«127495_j8564164788849_1_alg».proof.Proof.Gen.KernelIdeal.Frame
import proofs.«127495_j8564164788849_1_alg».proof.Proof.HostStretch0
import proofs.«127495_j8564164788849_1_alg».proof.Proof.HostStretch1
import proofs.«127495_j8564164788849_1_alg».proof.Proof.HostStretch3
import proofs.«127495_j8564164788849_1_alg».proof.Proof.StageMatch

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## After the first stretch -/

theorem W1_arg0 : W1 m ρ c (Proc.devRef .tc main_arg0) = m ((c : Thread nD τ).loc main_arg0) := Stretch0.keep_arg0 (W0 m ρ c)
theorem W1_arg2 : W1 m ρ c (Proc.devRef .tc main_arg2) = m ((c : Thread nD τ).loc main_arg2) := Stretch0.keep_arg2 (W0 m ρ c)
theorem W1_arg3 : W1 m ρ c (Proc.devRef .tc main_arg3) = m ((c : Thread nD τ).loc main_arg3) := Stretch0.keep_arg3 (W0 m ρ c)
theorem W1_arg4 : W1 m ρ c (Proc.devRef .tc main_arg4) = m ((c : Thread nD τ).loc main_arg4) := Stretch0.keep_arg4 (W0 m ρ c)
theorem W1_arg5 : W1 m ρ c (Proc.devRef .tc main_arg5) = m ((c : Thread nD τ).loc main_arg5) := Stretch0.keep_arg5 (W0 m ρ c)
theorem W1_arg6 : W1 m ρ c (Proc.devRef .tc main_arg6) = m ((c : Thread nD τ).loc main_arg6) := Stretch0.keep_arg6 (W0 m ρ c)
theorem W1_arg7 : W1 m ρ c (Proc.devRef .tc main_arg7) = m ((c : Thread nD τ).loc main_arg7) := Stretch0.keep_arg7 (W0 m ρ c)
theorem W1_src : W1 m ρ c (Proc.devRef .tc main_v1) = Cert.ReferenceIdeal.Read.val_main_v1 (F := Ideal) (m ((c : Thread nD τ).loc main_arg1)) := Stretch0.src (W0 m ρ c)
theorem W1_dst : W1 m ρ c (Proc.devRef .tc main_v3) = Cert.ReferenceIdeal.Read.val_main_v3 (F := Ideal) (m ((c : Thread nD τ).loc main_arg1)) := Stretch0.dst (W0 m ρ c)
theorem W1_weight1 : W1 m ρ c (Proc.devRef .tc main_v25) = Cert.ReferenceIdeal.Read.val_main_v26 (F := Ideal) (m ((c : Thread nD τ).loc main_arg1)) := Stretch0.weight1 (W0 m ρ c)
theorem W1_weight2 : W1 m ρ c (Proc.devRef .tc main_v25) = Cert.ReferenceIdeal.Read.val_main_v72 (F := Ideal) (m ((c : Thread nD τ).loc main_arg1)) := Stretch0.weight2 (W0 m ρ c)
theorem W1_self1 : W1 m ρ c (Proc.devRef .tc main_v27) = Cert.ReferenceIdeal.Read.val_main_v41 (F := Ideal) (m ((c : Thread nD τ).loc main_arg1)) := Stretch0.self1 (W0 m ρ c)
theorem W1_self2 : W1 m ρ c (Proc.devRef .tc main_v27) = Cert.ReferenceIdeal.Read.val_main_v87 (F := Ideal) (m ((c : Thread nD τ).loc main_arg1)) := Stretch0.self2 (W0 m ρ c)

/-! ## The first launch -/

/-- The first launch leaves the reference's first product. -/
theorem product1 : W2 m ρ c (Proc.devRef .tc main_v28)
    = Cert.ReferenceIdeal.Read.val_main_v4 (F := Ideal) (m ((c : Thread nD τ).loc main_arg0)) (m ((c : Thread nD τ).loc main_arg2)) := by
  refine (W2_arr m ρ c 2).trans ((Region0.array_eq (V1 m ρ) c).trans ?_)
  rw [show V1 m ρ c main_arg0 = _ from W1_arg0 m ρ c, show V1 m ρ c main_arg2 = _ from W1_arg2 m ρ c]
  exact Cert.StageMatch.product1 _ _

/-- A buffer that is none of the first launch's arrays is carried through it. -/
theorem W2_keep (b : Ref sig .tc) (hb : ∀ w, Pipeline.arrRef spec0 w ≠ b) :
    W2 m ρ c (Proc.devRef .tc b) = W1 m ρ c (Proc.devRef .tc b) := W2_of_ne m ρ c b hb

/-! ## The second stretch and the second launch -/

/-- The second launch leaves the reference's first activations. -/
theorem layer1 : W4 m ρ c (Proc.devRef .tc main_v44)
    = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) := by
  refine (W4_arr m ρ c 4).trans ((Region1.array_eq (V3 m ρ) c).trans ?_)
  have hp := product1 m ρ c
  have hagg : V3 m ρ c main_v41 = Cert.ReferenceIdeal.Read.val_main_v39 (F := Ideal) (m ((c : Thread nD τ).loc main_arg0)) (m ((c : Thread nD τ).loc main_arg1)) (m ((c : Thread nD τ).loc main_arg2)) :=
    Stretch1.agg (W2 m ρ c) _ _ _ hp
      ((W2_keep m ρ c main_v1 (by decide)).trans (W1_src m ρ c))
      ((W2_keep m ρ c main_v3 (by decide)).trans (W1_dst m ρ c))
      ((W2_keep m ρ c main_v25 (by decide)).trans (W1_weight1 m ρ c))
  have hh : V3 m ρ c main_v28 = Cert.ReferenceIdeal.Read.val_main_v4 (F := Ideal) (m ((c : Thread nD τ).loc main_arg0)) (m ((c : Thread nD τ).loc main_arg2)) :=
    (Stretch1.keep_product (W2 m ρ c)).trans hp
  have hs : V3 m ρ c main_v42 = shapeCast S100000x1 (Cert.ReferenceIdeal.Read.val_main_v41 (F := Ideal) (m ((c : Thread nD τ).loc main_arg1))) shapeCasts_S100000_S100000x1 :=
    (Stretch1.selfColumn (W2 m ρ c)).trans (congrArg (fun v => shapeCast S100000x1 v shapeCasts_S100000_S100000x1)
      ((W2_keep m ρ c main_v27 (by decide)).trans (W1_self1 m ρ c)))
  have hb : V3 m ρ c main_v43 = shapeCast S1x64 (m ((c : Thread nD τ).loc main_arg3)) shapeCasts_S64_S1x64 :=
    (Stretch1.biasRow (W2 m ρ c)).trans (congrArg (fun v => shapeCast S1x64 v shapeCasts_S64_S1x64)
      ((W2_keep m ρ c main_arg3 (by decide)).trans (W1_arg3 m ρ c)))
  rw [hagg, hh, hs, hb]
  exact Cert.StageMatch.layer1 _ _ _ _ _ _

/-- A buffer the second stretch does not write and that is none of the second launch's arrays is carried from the
    first launch's exit to the second launch's exit. -/
theorem W4_keep (b : Ref sig .tc) (hs : StableHlo.after hostOps1 (W2 m ρ c) (Proc.devRef .tc b) = W2 m ρ c (Proc.devRef .tc b))
    (hb : ∀ w, Pipeline.arrRef spec1 w ≠ b) : W4 m ρ c (Proc.devRef .tc b) = W2 m ρ c (Proc.devRef .tc b) :=
  (W4_of_ne m ρ c b hb).trans hs

/-! ## The third launch -/

/-- The third launch leaves the reference's second product. -/
theorem product2 : W5 m ρ c (Proc.devRef .tc main_v45)
    = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Region2.array_eq (V4 m ρ) c).trans ?_)
  have hw : V4 m ρ c main_arg4 = (m ((c : Thread nD τ).loc main_arg4)) :=
    (W4_keep m ρ c main_arg4 (Stretch1.keep_arg4 (W2 m ρ c)) (by decide)).trans
      ((W2_keep m ρ c main_arg4 (by decide)).trans (W1_arg4 m ρ c))
  rw [show V4 m ρ c main_v44 = _ from layer1 m ρ c, hw]
  exact Cert.StageMatch.product2 _ _ _ _ _

/-- A buffer carried from the first launch's exit to the third launch's exit. -/
theorem W5_keep (b : Ref sig .tc) (hs : StableHlo.after hostOps1 (W2 m ρ c) (Proc.devRef .tc b) = W2 m ρ c (Proc.devRef .tc b))
    (h1 : ∀ w, Pipeline.arrRef spec1 w ≠ b) (h2 : ∀ w, Pipeline.arrRef spec2 w ≠ b) :
    W5 m ρ c (Proc.devRef .tc b) = W2 m ρ c (Proc.devRef .tc b) :=
  (W5_of_ne m ρ c b h2).trans (W4_keep m ρ c b hs h1)

/-! ## The third stretch and the fourth launch -/

/-- The fourth launch leaves the reference's second activations. -/
theorem layer2 : W7 m ρ c (Proc.devRef .tc main_v61)
    = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ((Region3.array_eq (V6 m ρ) c).trans ?_)
  have hp := product2 m ρ c
  have hagg : V6 m ρ c main_v58 = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    Stretch3.agg (W5 m ρ c) _ _ _ _ _ hp
      ((W5_keep m ρ c main_v1 (Stretch1.keep_src (W2 m ρ c)) (by decide) (by decide)).trans ((W2_keep m ρ c main_v1 (by decide)).trans (W1_src m ρ c)))
      ((W5_keep m ρ c main_v3 (Stretch1.keep_dst (W2 m ρ c)) (by decide) (by decide)).trans ((W2_keep m ρ c main_v3 (by decide)).trans (W1_dst m ρ c)))
      ((W5_keep m ρ c main_v25 (Stretch1.keep_weight (W2 m ρ c)) (by decide) (by decide)).trans ((W2_keep m ρ c main_v25 (by decide)).trans (W1_weight2 m ρ c)))
  have hh : V6 m ρ c main_v45 = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    (Stretch3.keep_product (W5 m ρ c)).trans hp
  have hs : V6 m ρ c main_v59 = shapeCast S100000x1 (Cert.ReferenceIdeal.Read.val_main_v87 (F := Ideal) (m ((c : Thread nD τ).loc main_arg1))) shapeCasts_S100000_S100000x1 :=
    (Stretch3.selfColumn (W5 m ρ c)).trans (congrArg (fun v => shapeCast S100000x1 v shapeCasts_S100000_S100000x1)
      ((W5_keep m ρ c main_v27 (Stretch1.keep_self (W2 m ρ c)) (by decide) (by decide)).trans ((W2_keep m ρ c main_v27 (by decide)).trans (W1_self2 m ρ c))))
  have hb : V6 m ρ c main_v60 = shapeCast S1x64 (m ((c : Thread nD τ).loc main_arg5)) shapeCasts_S64_S1x64 :=
    (Stretch3.biasRow (W5 m ρ c)).trans (congrArg (fun v => shapeCast S1x64 v shapeCasts_S64_S1x64)
      ((W5_keep m ρ c main_arg5 (Stretch1.keep_arg5 (W2 m ρ c)) (by decide) (by decide)).trans ((W2_keep m ρ c main_arg5 (by decide)).trans (W1_arg5 m ρ c))))
  rw [hagg, hh, hs, hb]
  exact Cert.StageMatch.layer2 _ _ _ _ _ _ _ _

/-- A buffer carried from the third launch's exit to the fourth launch's exit. -/
theorem W7_keep (b : Ref sig .tc) (hs : StableHlo.after hostOps3 (W5 m ρ c) (Proc.devRef .tc b) = W5 m ρ c (Proc.devRef .tc b))
    (hb : ∀ w, Pipeline.arrRef spec3 w ≠ b) : W7 m ρ c (Proc.devRef .tc b) = W5 m ρ c (Proc.devRef .tc b) :=
  (W7_of_ne m ρ c b hb).trans hs

/-! ## The last stretch and the fifth launch -/

/-- The fifth launch leaves the reference's result. -/
theorem result : W9 m ρ c (Proc.devRef .tc main_v63)
    = Cert.ReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 3).trans ((Region4.array_eq (V8 m ρ) c).trans ?_)
  have hh : V8 m ρ c main_v61 = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (Stretch4.keep_layer (W7 m ρ c)).trans (layer2 m ρ c)
  have hw : V8 m ρ c main_arg6 = (m ((c : Thread nD τ).loc main_arg6)) :=
    (Stretch4.keep_arg6 (W7 m ρ c)).trans ((W7_keep m ρ c main_arg6 (Stretch3.keep_arg6 (W5 m ρ c)) (by decide)).trans
      ((W5_keep m ρ c main_arg6 (Stretch1.keep_arg6 (W2 m ρ c)) (by decide) (by decide)).trans ((W2_keep m ρ c main_arg6 (by decide)).trans (W1_arg6 m ρ c))))
  have hb : V8 m ρ c main_v62 = shapeCast S1x1 (m ((c : Thread nD τ).loc main_arg7)) shapeCasts_S1_S1x1 :=
    (Stretch4.biasCell (W7 m ρ c)).trans (congrArg (fun v => shapeCast S1x1 v shapeCasts_S1_S1x1)
      ((W7_keep m ρ c main_arg7 (Stretch3.keep_arg7 (W5 m ρ c)) (by decide)).trans
        ((W5_keep m ρ c main_arg7 (Stretch1.keep_arg7 (W2 m ρ c)) (by decide) (by decide)).trans ((W2_keep m ρ c main_arg7 (by decide)).trans (W1_arg7 m ρ c)))))
  rw [hh, hw, hb]
  exact Cert.StageMatch.classifier _ _ _ _ _ _ _ _ _

end Cert.KernelIdeal.Chain

end
-- ==== Proof.lean ====
/-
  A two-layer graph convolution followed by a logistic classifier: the kernel program against its reference, on the
  extended reals.

  Both programs compute, for node features x, an edge list, weights W1, W2, Wc and biases b1, b2, bc,
      h1 = max((A(x·W1) + (x·W1)·s) + b1, 0),   h2 = max((A(h1·W2) + (h1·W2)·s) + b2, 0),   out = logistic(h2·Wc + bc),
  where A gathers its argument's rows at each edge's source, scales them by the edge weight
  rsqrt(deg(source))·rsqrt(deg(target)) and adds them up at the edge's target, deg counts incoming edges plus one,
  and s = 1/deg. The reference is one straight line of array operations. The kernel program does the gathers and
  scatter-adds with the same host operations and the three matrix products, the two combinations and the logistic in
  five grid launches over fifty tiles of 2000 rows. Every tile is the restriction to its rows of one whole-array
  function, the host operations between launches are the reference's own, a sum of products is the same sum however it
  is tiled, and the logistic IS 1 / (1 + exp(−·)) on the extended reals; the operations are applied in the same
  order and grouping on both sides, so no law that could fail at an infinity is used and the precondition is not
  opened. The idealization rewrote nothing, so the kernel program and its idealization are the same text.
-/
import proofs.«127495_j8564164788849_1_alg».proof.Defs
import proofs.«127495_j8564164788849_1_alg».proof.Proof.Gen.Kernel
import proofs.«127495_j8564164788849_1_alg».proof.Proof.Gen.Kernel.Skeleton
import proofs.«127495_j8564164788849_1_alg».proof.Proof.Gen.Kernel.Launch
import proofs.«127495_j8564164788849_1_alg».proof.Proof.Gen.Kernel.Points
import proofs.«127495_j8564164788849_1_alg».proof.Proof.Gen.Kernel.Frame
import proofs.«127495_j8564164788849_1_alg».proof.Proof.Gen.KernelIdeal
import proofs.«127495_j8564164788849_1_alg».proof.Proof.Gen.KernelIdeal.Skeleton
import proofs.«127495_j8564164788849_1_alg».proof.Proof.Gen.KernelIdeal.Launch
import proofs.«127495_j8564164788849_1_alg».proof.Proof.Gen.KernelIdeal.Points
import proofs.«127495_j8564164788849_1_alg».proof.Proof.Gen.KernelIdeal.Frame
import proofs.«127495_j8564164788849_1_alg».proof.Proof.Gen.ReferenceIdeal
import proofs.«127495_j8564164788849_1_alg».proof.Proof.Gen.Pre_finite_inputs
import proofs.«127495_j8564164788849_1_alg».proof.Proof.Gen.ReferenceIdeal.Run
import proofs.«127495_j8564164788849_1_alg».proof.Proof.Gen.ReferenceIdeal.Read
import proofs.«127495_j8564164788849_1_alg».proof.Proof.KernelRun
import proofs.«127495_j8564164788849_1_alg».proof.Proof.Chain
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the reference's last
    intermediate, as a function of the kernel program's arguments. -/
theorem algebraic : Cert.algebraic_KernelIdeal_ReferenceIdeal := by
  intro m ρ m' ρ' _ hagree
  refine ⟨fun c => Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    ?_, ?_⟩
  · exact (θ_run Cert.KernelIdeal.defs _ _).mono
      (fun r h c => ⟨(h c).1.trans (Cert.KernelIdeal.Chain.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v105_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
